-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x128 : Shape := ⟨3, ![8, 32768, 128]⟩
abbrev S128x128 : Shape := ⟨2, ![128, 128]⟩
abbrev S64 : Shape := ⟨1, ![64]⟩
abbrev S64x128 : Shape := ⟨2, ![64, 128]⟩
abbrev S_ : Shape := ⟨0, ![]⟩

class Facts : Prop where
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S8x32768x128 .f32) (main_arg1 : FVec F S128x128 .f32) (main_arg2 : IVec S64 32) (main_arg3 : FVec F S64x128 .f32) : IVec S_ 1 :=
  let main_v0 : FVec F S8x32768x128 .f32 := Host.absf main_arg0
  let main_cst : FVec F S_ .f32 := constant S_ .f32 0x7F800000#32
  let main_v1 : FVec F S8x32768x128 .f32 := broadcastInDim S8x32768x128 ![] bcast_S_S8x32768x128 main_cst
  let main_v2 : IVec S8x32768x128 1 := cmpf .olt main_v0 main_v1
  let main_c : IVec S_ 1 := constantI S_ 1 1#1
  let main_v3 : IVec S_ 1 := (fun x v => Host.reduce IntOp.andi x v reducesTo_S8x32768x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S8x32768x128 : Shape := ⟨3, ![8, 32768, 128]⟩
abbrev S128x128 : Shape := ⟨2, ![128, 128]⟩
abbrev S64 : Shape := ⟨1, ![64]⟩
abbrev S64x128 : Shape := ⟨2, ![64, 128]⟩
abbrev S8x128x32768 : Shape := ⟨3, ![8, 128, 32768]⟩
abbrev S1x8192x128 : Shape := ⟨3, ![1, 8192, 128]⟩
abbrev S1x128x8192 : Shape := ⟨3, ![1, 128, 8192]⟩
abbrev S8192x128 : Shape := ⟨2, ![8192, 128]⟩
abbrev S128x8192 : Shape := ⟨2, ![128, 8192]⟩
abbrev S_ : Shape := ⟨0, ![]⟩
abbrev S64x1 : Shape := ⟨2, ![64, 1]⟩

abbrev nBuf : Space → Nat
  | .hbm => 36
  | .vmem => 5
  | .smem => 0
  | _ => 0

abbrev bufTy : (tb : Table) → Fin (tcTables nBuf tb) → BufTy
  | .hbm, ⟨0, _⟩ => ⟨S8x32768x128, .f32⟩
  | .hbm, ⟨1, _⟩ => ⟨S128x128, .f32⟩
  | .hbm, ⟨2, _⟩ => ⟨S64, .i32⟩
  | .hbm, ⟨3, _⟩ => ⟨S64x128, .f32⟩
  | .hbm, ⟨4, _⟩ => ⟨S8x128x32768, .f32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64, .f32⟩
  | .hbm, ⟨24, _⟩ => ⟨S64x1, .f32⟩
  | .hbm, ⟨25, _⟩ => ⟨S64x1, .f32⟩
  | .hbm, ⟨26, _⟩ => ⟨S64x128, .f32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S64x1, .i32⟩
  | .hbm, ⟨35, _⟩ => ⟨S128x128, .f32⟩
  | .local _ .vmem, ⟨0, _⟩ => ⟨S1x8192x128, .f32⟩
  | .local _ .vmem, ⟨1, _⟩ => ⟨S1x8192x128, .f32⟩
  | .local _ .vmem, ⟨2, _⟩ => ⟨S128x128, .f32⟩
  | .local _ .vmem, ⟨3, _⟩ => ⟨S1x128x8192, .f32⟩
  | .local _ .vmem, ⟨4, _⟩ => ⟨S1x128x8192, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  shapeCasts_S128x8192_S1x128x8192 : S128x8192.ShapeCasts S1x128x8192
  bcast_S_S64 : S_.BroadcastsInDim S64 (![] : Fin 0 → Fin S64.rank)
  bcast_S64_S64x1_0 : S64.BroadcastsInDim S64x1 (![0] : Fin 1 → Fin S64x1.rank)
  bcast_S_S64x128 : S_.BroadcastsInDim S64x128 (![] : Fin 0 → Fin S64x128.rank)
  reducesTo_S64x128_S64_d1 : S64x128.ReducesTo [1] S64
  h_S_ : 0 < S_.numel
  bcast_S64x1_S64x128_0_1 : S64x1.BroadcastsInDim S64x128 (![0, 1] : Fin 2 → Fin S64x128.rank)
  dot_S128x128_S8192x128_S128x8192_0_1_1_0_n_n_wf : DotDims.WF S128x128 S8192x128 S128x8192 [0] [1] [1] [0] [] []
  gather_S128x128_S64x1_S64x128_1_0_n_n_0_1_1128_wf : GatherDims.WF S128x128 S64x1 S64x128 [1] [0] [] [0] [] 1 ![1, 128]
  scatter_S128x128_S64x1_S64x128_1_0_0_1_wf : ScatterDims.WF S128x128 S64x1 S64x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S8x32768x128.size a
  hwx0_0 : ∀ i : grid0.Coords, EltTy.bits .f32 = 32 ∨ (Rect.block (s := S8x32768x128) S1x8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x8192.size a ≤ S8x128x32768.size a
  hwx0_2 : ∀ i : grid0.Coords, EltTy.bits .f32 = 32 ∨ (Rect.block (s := S8x128x32768) S1x128x8192.size (cc0_transform_2 i) (hinb0_2 i)).WholeWords (EltTy.packing .f32)

variable [Facts₀]

def dot_S128x128_S8192x128_S128x8192_0_1_1_0_n_n : DotDims S128x128 S8192x128 S128x8192 where
  lhsContracting := [0]
  rhsContracting := [1]
  lhsNonContracting := [1]
  rhsNonContracting := [0]
  lhsBatch := []
  rhsBatch := []
  wf := dot_S128x128_S8192x128_S128x8192_0_1_1_0_n_n_wf
def gather_S128x128_S64x1_S64x128_1_0_n_n_0_1_1128 : GatherDims S128x128 S64x1 S64x128 where
  offsetDims := [1]
  collapsedSliceDims := [0]
  operandBatchingDims := []
  startIndicesBatchingDims := []
  startIndexMap := [0]
  indexVectorDim := 1
  sliceSizes := ![1, 128]
  wf := gather_S128x128_S64x1_S64x128_1_0_n_n_0_1_1128_wf
def scatter_S128x128_S64x1_S64x128_1_0_0_1 : ScatterDims S128x128 S64x1 S64x128 where
  updateWindowDims := [1]
  insertedWindowDims := [0]
  scatterDimsToOperandDims := [0]
  indexVectorDim := 1
  wf := scatter_S128x128_S64x1_S64x128_1_0_0_1_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32768x128 : Shape := ⟨3, ![8, 32768, 128]⟩
abbrev S128x128 : Shape := ⟨2, ![128, 128]⟩
abbrev S64 : Shape := ⟨1, ![64]⟩
abbrev S64x128 : Shape := ⟨2, ![64, 128]⟩
abbrev S128x8x32768 : Shape := ⟨3, ![128, 8, 32768]⟩
abbrev S8x128x32768 : Shape := ⟨3, ![8, 128, 32768]⟩
abbrev S_ : Shape := ⟨0, ![]⟩
abbrev S64x1 : Shape := ⟨2, ![64, 1]⟩

abbrev nBuf : Space → Nat
  | .hbm => 37
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S128x128, .f32⟩
  | .hbm, ⟨2, _⟩ => ⟨S64, .i32⟩
  | .hbm, ⟨3, _⟩ => ⟨S64x128, .f32⟩
  | .hbm, ⟨4, _⟩ => ⟨S128x8x32768, .f32⟩
  | .hbm, ⟨5, _⟩ => ⟨S8x128x32768, .f32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x128, .f32⟩
  | .hbm, ⟨15, _⟩ => ⟨S_, .f32⟩
  | .hbm, ⟨16, _⟩ => ⟨S64x128, .f32⟩
  | .hbm, ⟨17, _⟩ => ⟨S64x128, .f32⟩
  | .hbm, ⟨18, _⟩ => ⟨S_, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S64x128, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x1, .f32⟩
  | .hbm, ⟨27, _⟩ => ⟨S64x128, .f32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x1, .i32⟩
  | .hbm, ⟨36, _⟩ => ⟨S128x128, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  transposes_S128x8x32768_S8x128x32768_1_0_2 : S128x8x32768.Transposes [1, 0, 2] S8x128x32768
  bcast_S_S64 : S_.BroadcastsInDim S64 (![] : Fin 0 → Fin S64.rank)
  bcast_S64_S64x1_0 : S64.BroadcastsInDim S64x1 (![0] : Fin 1 → Fin S64x1.rank)
  bcast_S_S64x128 : S_.BroadcastsInDim S64x128 (![] : Fin 0 → Fin S64x128.rank)
  reducesTo_S64x128_S64_d1 : S64x128.ReducesTo [1] S64
  h_S_ : 0 < S_.numel
  bcast_S64x1_S64x128_0_1 : S64x1.BroadcastsInDim S64x128 (![0, 1] : Fin 2 → Fin S64x128.rank)
  dot_S128x128_S8x32768x128_S128x8x32768_0_2_1_01_n_n_wf : DotDims.WF S128x128 S8x32768x128 S128x8x32768 [0] [2] [1] [0, 1] [] []
  gather_S128x128_S64x1_S64x128_1_0_n_n_0_1_1128_wf : GatherDims.WF S128x128 S64x1 S64x128 [1] [0] [] [0] [] 1 ![1, 128]
  scatter_S128x128_S64x1_S64x128_1_0_0_1_wf : ScatterDims.WF S128x128 S64x1 S64x128 [1] [0] [0] 1

variable [Facts₀]

def dot_S128x128_S8x32768x128_S128x8x32768_0_2_1_01_n_n : DotDims S128x128 S8x32768x128 S128x8x32768 where
  lhsContracting := [0]
  rhsContracting := [2]
  lhsNonContracting := [1]
  rhsNonContracting := [0, 1]
  lhsBatch := []
  rhsBatch := []
  wf := dot_S128x128_S8x32768x128_S128x8x32768_0_2_1_01_n_n_wf
def gather_S128x128_S64x1_S64x128_1_0_n_n_0_1_1128 : GatherDims S128x128 S64x1 S64x128 where
  offsetDims := [1]
  collapsedSliceDims := [0]
  operandBatchingDims := []
  startIndicesBatchingDims := []
  startIndexMap := [0]
  indexVectorDim := 1
  sliceSizes := ![1, 128]
  wf := gather_S128x128_S64x1_S64x128_1_0_n_n_0_1_1128_wf
def scatter_S128x128_S64x1_S64x128_1_0_0_1 : ScatterDims S128x128 S64x1 S64x128 where
  updateWindowDims := [1]
  insertedWindowDims := [0]
  scatterDimsToOperandDims := [0]
  indexVectorDim := 1
  wf := scatter_S128x128_S64x1_S64x128_1_0_0_1_wf

class Facts : Prop extends Facts₀ where

variable [Facts]
-- ==== Proof.Contract.lean ====
/-
  The first result as ONE function of the two float arguments. With `x : [8, 32768, 128]` and `w : [128, 128]`,

      out[b, f, n] = Σ_{k < 128} w[k, f] · x[b, n, k]

  on the extended reals: each product has the weight on the left, and the sum runs over the shared axis of extent 128.
  Both programs compute exactly this sum with the factors in this order, so no law of the extended reals beyond
  re-indexing a finite sum is needed, and finiteness of the inputs is never used.
-/
import Idealize.ShloMosaic.PureOps.Ideal
import Idealize.ShloMosaic.Lib.ValueIdx

noncomputable section

namespace Cert.Bridge

open Idealize.ShloMosaic Idealize.ShloMosaic.ValueIdx

/-- The input's shape, the weight's, and the result's. -/
abbrev SX : Shape := ⟨3, ![8, 32768, 128]⟩
abbrev SW : Shape := ⟨2, ![128, 128]⟩
abbrev SO : Shape := ⟨3, ![8, 128, 32768]⟩

/-- One entry of the result from its three coordinates: batch `b`, output feature `f`, position `n`. -/
def contractAt (x : FVec Ideal SX .f32) (w : FVec Ideal SW .f32) (b : Fin 8) (f : Fin 128) (n : Fin 32768) : Ideal .f32 :=
  ∑ k : Fin 128, w (ix2 k f) * x (ix3 b n k)

/-- The whole result: entry `(b, f, n)` is `contractAt x w b f n`. -/
def contract (x : FVec Ideal SX .f32) (w : FVec Ideal SW .f32) : FVec Ideal SO .f32 :=
  fun i => contractAt x w (i 0) (i 1) (i 2)

end Cert.Bridge

end
-- ==== Proof.RefRead.lean ====
/-
  The reference's first result is the contraction `Cert.Bridge.contract`.

  The reference forms `dot_general` of the weight (contracting its axis 0) with the input (contracting its axis 2),
  which yields an array indexed `[f, b, n]`, and then transposes the first two axes. Read at `(b, f, n)` the transpose
  looks up `(f, b, n)`, and there the product is the sum over `k` of `w[k, f] · x[b, n, k]`.
-/
import proofs.«124176_j23416161698500_2_alg».proof.Proof.Gen.ReferenceIdeal.Read
import proofs.«124176_j23416161698500_2_alg».proof.Proof.Contract

noncomputable section

namespace Cert.Bridge

open Idealize.ShloMosaic Idealize.ShloMosaic.ValueIdx Cert.ReferenceIdeal

/-- Index by index, the transposed product of the reference is `contract`. -/
theorem ref_out (x : FVec Ideal SX .f32) (w : FVec Ideal SW .f32) :
    Read.val_main_v1 (F := Ideal) x w = contract x w := by
  funext i
  rw [Read.val_main_v1_apply, Read.val_main_v0_apply]
  unfold contract contractAt
  refine Finset.sum_congr rfl fun k _ => ?_
  have el : Read.lidx_main_v0 (Read.idx_main_v1 i) k = ix2 k (i 1) :=
    funext fun a => Fin.ext (by match a with | ⟨0, _⟩ => rfl | ⟨1, _⟩ => rfl)
  have er : Read.ridx_main_v0 (Read.idx_main_v1 i) k = ix3 (i 0) (i 2) k :=
    funext fun a => Fin.ext (by match a with | ⟨0, _⟩ => rfl | ⟨1, _⟩ => rfl | ⟨2, _⟩ => rfl)
  exact congrArg₂ (· * ·) (congrArg w el) (congrArg x er)

end Cert.Bridge

end
-- ==== Proof.KernelBlock.lean ====
/-
  One grid point of the kernel, as arithmetic. The body loads an input block `x0 : [1, 8192, 128]` and the whole
  weight `x1 : [128, 128]`, drops the block's leading unit axis, and multiplies on the matrix unit into a zero
  accumulator, contracting the weight's axis 0 with the block's axis 1; the `[128, 8192]` product is stored back
  with the unit axis restored. The two changes of float format are the identity on the extended reals. So the
  stored block, read at `(0, f, n)`, is the sum over `k` of `x1[k, f] · x0[0, n, k]`.
-/
import proofs.«124176_j23416161698500_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.KernelIdeal Cert.KernelIdeal.Gen

/-- The kernel's contraction: weight axis 0 against block axis 1, result `[f, n]`. -/
abbrev blockDot : DotDims S128x128 S8192x128 S128x8192 := dot_S128x128_S8192x128_S128x8192_0_1_1_0_n_n

/-- The weight is read at (contraction position, result row). -/
theorem blockDot_lhs_0 (j : S128x8192.Idx) (q : blockDot.contr.Idx) :
    (blockDot.lhsIdx j q 0).val = (q ⟨0, by decide⟩).val :=
  blockDot.lhsIdx_val_of_single rfl j q

theorem blockDot_lhs_1 (j : S128x8192.Idx) (q : blockDot.contr.Idx) :
    (blockDot.lhsIdx j q 1).val = (j 0).val := by
  unfold DotDims.lhsIdx
  rw [dif_neg (show ¬(1 : Fin S128x128.rank) ∈ blockDot.lhsBatch by decide),
    dif_pos (show (1 : Fin S128x128.rank) ∈ blockDot.lhsNonContracting by decide)]
  rfl

/-- The block is read at (result column, contraction position). -/
theorem blockDot_rhs_0 (j : S128x8192.Idx) (q : blockDot.contr.Idx) :
    (blockDot.rhsIdx j q 0).val = (j 1).val := by
  unfold DotDims.rhsIdx
  rw [dif_neg (show ¬(0 : Fin S8192x128.rank) ∈ blockDot.rhsBatch by decide),
    dif_pos (show (0 : Fin S8192x128.rank) ∈ blockDot.rhsNonContracting by decide)]
  rfl

theorem blockDot_rhs_1 (j : S128x8192.Idx) (q : blockDot.contr.Idx) :
    (blockDot.rhsIdx j q 1).val = (q ⟨0, by decide⟩).val :=
  blockDot.rhsIdx_val_of_single rfl j q

/-- The product of the two operands into the zero accumulator, entry `(f, n)`: the sum over the shared axis. -/
theorem blockDot_apply (l : FVec Ideal S128x128 .bf16) (r : FVec Ideal S8192x128 .bf16) (f : Fin 128) (n : Fin 8192) :
    matmul (F := Ideal) blockDot none l r (constant (F := Ideal) S128x8192 .f32 0x00000000#32) (ix2 f n)
      = ∑ k : Fin 128, l (ix2 k f) * r (ix2 n k) := by
  refine (Ideal.matmul_constant_zero_apply blockDot none l r (ix2 f n)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 f n) ((contrEquiv1 blockDot 128 rfl rfl).symm k) = ix2 k f :=
    funext fun a => Fin.ext (by
      match a with
      | ⟨0, _⟩ => exact (blockDot_lhs_0 _ _).trans hk
      | ⟨1, _⟩ => exact blockDot_lhs_1 _ _)
  have er : blockDot.rhsIdx (ix2 f n) ((contrEquiv1 blockDot 128 rfl rfl).symm k) = ix2 n k :=
    funext fun a => Fin.ext (by
      match a with
      | ⟨0, _⟩ => exact blockDot_rhs_0 _ _
      | ⟨1, _⟩ => exact (blockDot_rhs_1 _ _).trans hk)
  rw [el, er]

/-- What the body stores, read at `(0, f, n)` of the output block. -/
theorem pay_apply (x0 : Vec Ideal S1x8192x128 .f32) (x1 : Vec Ideal S128x128 .f32) (f : Fin 128) (n : Fin 8192) :
    k0_pay1 (F := Ideal) x0 x1 (ix3 (0 : Fin 1) f n)
      = ∑ k : Fin 128, x1 (ix2 k f) * x0 (ix3 (0 : Fin 1) n k) := by
  unfold k0_pay1
  refine (shapeCast_addUnit_apply ![128, 8192] _ shapeCasts_S128x8192_S1x128x8192 (ix3 (0 : Fin 1) f n)).trans ?_
  have hj : (fun a : Fin 2 => (ix3 (0 : Fin 1) f n) a.succ) = (ix2 f n : S128x8192.Idx) :=
    funext fun a => by match a with | ⟨0, _⟩ => rfl | ⟨1, _⟩ => rfl
  rw [hj]
  refine (blockDot_apply _ _ f n).trans ?_
  refine Finset.sum_congr rfl fun k _ => ?_
  refine congrArg (x1 (ix2 k f) * ·) ?_
  refine (shapeCast_dropUnit_apply ![8192, 128] x0 shapeCasts_S1x8192x128_S8192x128 (ix2 n k)).trans ?_
  refine congrArg x0 (funext fun a => ?_)
  match a with
  | ⟨0, _⟩ => rfl
  | ⟨1, _⟩ => rfl
  | ⟨2, _⟩ => rfl

/-- The same at any index `j` of the output block (its leading coordinate ranges over one value). -/
theorem pay_at (x0 : Vec Ideal S1x8192x128 .f32) (x1 : Vec Ideal S128x128 .f32) (j : S1x128x8192.Idx) :
    k0_pay1 (F := Ideal) x0 x1 j = ∑ k : Fin 128, x1 (ix2 k (j 1)) * x0 (ix3 (j 0) (j 2) k) := by
  obtain ⟨z, f, n, rfl⟩ : ∃ (z : Fin 1) (f : Fin 128) (n : Fin 8192), j = ix3 z f n := ⟨j 0, j 1, j 2, eq_ix3 j⟩
  obtain rfl : z = 0 := Subsingleton.elim _ _
  exact pay_apply x0 x1 f n

end Cert.Bridge

end
-- ==== Proof.KernelOut.lean ====
/-
  From blocks to the whole first result. The grid has 8 × 4 points; point `(b, q)` reads rows
  `[8192 q, 8192 q + 8192)` of batch `b` of the input and the whole weight, and writes back the `[1, 128, 8192]` block
  of the result at batch `b`, columns `[8192 q, 8192 q + 8192)`. An entry `(b, f, n)` of that block is the block
  product of `Cert.Bridge.pay_at`, whose input rows are exactly the rows `n` of batch `b` of the whole input: so every
  point writes back its block of the one function `Cert.Bridge.contract`. The 32 blocks cover the result
  (`(b, f, n)` lies in the block of point `(b, n / 8192)`), hence the result array ends holding `contract`.
-/
import proofs.«124176_j23416161698500_2_alg».proof.Proof.Gen.KernelIdeal.Frame
import proofs.«124176_j23416161698500_2_alg».proof.Proof.KernelBlock
import proofs.«124176_j23416161698500_2_alg».proof.Proof.Contract
import Idealize.ShloMosaic.Lib.Pipeline.Value

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The three index maps over the grid: the input block sits at the result block's batch and column-block, on its own
    last axis at 0; the weight block is always the whole weight; the result block is at row-block 0. -/
theorem idx_facts : ∀ t : Fin cfg0.N,
    win0_0.index t (0 : Fin 3) = win0_2.index t (0 : Fin 3)
    ∧ win0_0.index t (1 : Fin 3) = win0_2.index t (2 : Fin 3)
    ∧ win0_0.index t (2 : Fin 3) = 0
    ∧ win0_1.index t (0 : Fin 2) = 0
    ∧ win0_1.index t (1 : Fin 2) = 0
    ∧ win0_2.index t (1 : Fin 3) = 0 :=
  (by decide +kernel : ∀ t : Fin grid0.N, _)

/-- Every (batch, column-block) pair is some point's result block. -/
theorem idx_onto : ∀ (b : Fin 8) (q : Fin 4), ∃ t : Fin cfg0.N, win0_2.index t = ![b.val, 0, q.val] :=
  (by decide +kernel : ∀ (b : Fin 8) (q : Fin 4), ∃ t : Fin grid0.N, win0_2.index t = ![b.val, 0, q.val])

/-- What point `t` writes back is its block of `contract` of the two float arguments. -/
theorem flushed_eq (c : Dev nD) (t : Fin cfg0.N) :
    (dats m 0 c).flushed 2 t
      = ((cfg0.win 2).blk t).view.read (Elt Ideal) (contract (V m c main_arg0) (V m c main_arg1)) := by
  show (cfg0.win 2).cut (grid0.coords t) ((dats m 0 c).after 2 t) = _
  rw [after0_2]
  unfold out0_2
  rw [View.canon_unit_zero zero3]
  simp only [View.ld_unit_zero (S := S1x8192x128) zero3, View.ld_unit_zero (S := S128x128) zero2]
  obtain ⟨e0, e1, e2, e3, e4, e5⟩ := idx_facts t
  funext j
  show k0_pay1 (F := Ideal) (iblk m c 0 t) (iblk m c 1 t) j
    = contract (V m c main_arg0) (V m c main_arg1) (((cfg0.win 2).blk t).view.emb j)
  refine (pay_at (iblk m c 0 t) (iblk m c 1 t) j).trans ?_
  unfold contract contractAt
  refine Finset.sum_congr rfl fun k _ => ?_
  have hw : iblk m c 1 t (ix2 k (j 1))
      = V m c main_arg1 (ix2 k ((((cfg0.win 2).blk t).view.emb j) 1)) := by
    show V m c main_arg1 (((cfg0.win 1).blk t).view.emb (ix2 k (j 1))) = _
    refine congrArg (V m c main_arg1) (funext fun a => Fin.ext ?_)
    match a with
    | ⟨0, _⟩ => show win0_1.index t (0 : Fin 2) * 128 + 1 * k.val = k.val; omega
    | ⟨1, _⟩ =>
      show win0_1.index t (1 : Fin 2) * 128 + 1 * (j 1).val = win0_2.index t (1 : Fin 3) * 128 + 1 * (j 1).val
      omega
  have hx : iblk m c 0 t (ix3 (j 0) (j 2) k)
      = V m c main_arg0 (ix3 ((((cfg0.win 2).blk t).view.emb j) 0) ((((cfg0.win 2).blk t).view.emb j) 2) k) := by
    show V m c main_arg0 (((cfg0.win 0).blk t).view.emb (ix3 (j 0) (j 2) k)) = _
    refine congrArg (V m c main_arg0) (funext fun a => Fin.ext ?_)
    match a with
    | ⟨0, _⟩ =>
      show win0_0.index t (0 : Fin 3) * 1 + 1 * (j 0).val = win0_2.index t (0 : Fin 3) * 1 + 1 * (j 0).val
      omega
    | ⟨1, _⟩ =>
      show win0_0.index t (1 : Fin 3) * 8192 + 1 * (j 2).val = win0_2.index t (2 : Fin 3) * 8192 + 1 * (j 2).val
      omega
    | ⟨2, _⟩ => show win0_0.index t (2 : Fin 3) * 128 + 1 * k.val = k.val; omega
  exact congrArg₂ (· * ·) hw hx

/-- An index of the result is in point `t`'s block iff each coordinate is in the block's range on its axis. -/
theorem mem_blk (t : Fin cfg0.N) (i : S8x128x32768.Idx) :
    i ∈ ((cfg0.win 2).blk t).view.set ↔ ∀ a : Fin 3, win0_2.index t a * S1x128x8192.size a ≤ (i a).val
      ∧ (i a).val < win0_2.index t a * S1x128x8192.size a + S1x128x8192.size a := by
  show i ∈ ((View.whole main_v0).slice (win0_2.rect t)).set ↔ _
  rw [View.set_slice_whole, Rect.mem_set_unit]
  exact Iff.rfl

/-- Every index of the result is in the block of the point at its batch and its column divided by 8192. -/
theorem cover (i : S8x128x32768.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 32768 := (i 2).isLt
  obtain ⟨t, ht⟩ := idx_onto ⟨(i 0).val, hi0⟩ ⟨(i 2).val / 8192, by omega⟩
  have q0 : win0_2.index t (0 : Fin 3) = (i 0).val := congrFun ht 0
  have q1 : win0_2.index t (1 : Fin 3) = 0 := congrFun ht 1
  have q2 : win0_2.index t (2 : Fin 3) = (i 2).val / 8192 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 8192 ≤ (i 2).val ∧ (i 2).val < win0_2.index t (2 : Fin 3) * 8192 + 8192
    omega

/-- The result array after the run is `contract` of the two float arguments as launched. -/
theorem out_final (c : Dev nD) :
    (dats m 0 c).arrAt 2 cfg0.N
      = contract (m ((c : Thread nD τ).loc main_arg0)) (m ((c : Thread nD τ).loc main_arg1)) :=
  (dats m 0 c).arrAt_eq_of_cover 2 (contract (V m c main_arg0) (V m c main_arg1))
    (fun t _ => flushed_eq m c t) cover

end Cert.Bridge

end
-- ==== Proof.KernelTail.lean ====
/-
  The second result. After the grid, the kernel's program applies a chain of host operations to the weight, the keys
  and the values: wrap negative keys by adding 128, gather one weight row per key, average it with the value row
  (both halved), take the root of the row's sum of squares, and write that number across the keyed row of the weight,
  a later key overwriting an earlier one. The reference applies the very same chain, operation for operation and
  literal for literal, to the same three arrays. So nothing inside the chain is opened: it is enough that the three
  arrays it reads are, when the grid has finished, still the arrays the program was launched with — the weight is an
  input of the grid that is never written back, and the keys and values are not touched by the grid at all.
-/
import proofs.«124176_j23416161698500_2_alg».proof.Proof.Gen.KernelIdeal.Frame
import proofs.«124176_j23416161698500_2_alg».proof.Proof.Gen.ReferenceIdeal.Read
import Idealize.ShloMosaic.Lib.StableHlo.Run

noncomputable section

namespace Cert.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- When the grid has finished the weight is as launched: the grid only reads it. -/
theorem exit_weight (c : Dev nD) :
    Pipeline.withArrays spec0 c (V0 m c) (fun w => (dats m 0 c).arrAt w cfg0.N) (Proc.devRef .tc main_arg1)
      = m ((c : Thread nD τ).loc main_arg1) :=
  (Pipeline.withArrays_arr spec0 launch0.win.arr_inj c _ _ 1).trans
    (((dats m 0 c).arrAt_in 1 rfl _).trans ((A_eq m c 1).trans (V_main_arg1 m c)))

/-- The keys are no array of the grid: as launched. -/
theorem exit_keys (c : Dev nD) :
    Pipeline.withArrays spec0 c (V0 m c) (fun w => (dats m 0 c).arrAt w cfg0.N) (Proc.devRef .tc main_arg2)
      = m ((c : Thread nD τ).loc main_arg2) :=
  (Pipeline.withArrays_of_ne spec0 c (V0 m c) _ main_arg2
    (by exact (by decide : ∀ w, Pipeline.arrRef spec0 w ≠ main_arg2))).trans (V_main_arg2 m c)

/-- Nor are the values: as launched. -/
theorem exit_values (c : Dev nD) :
    Pipeline.withArrays spec0 c (V0 m c) (fun w => (dats m 0 c).arrAt w cfg0.N) (Proc.devRef .tc main_arg3)
      = m ((c : Thread nD τ).loc main_arg3) :=
  (Pipeline.withArrays_of_ne spec0 c (V0 m c) _ main_arg3
    (by exact (by decide : ∀ w, Pipeline.arrRef spec0 w ≠ main_arg3))).trans (V_main_arg3 m c)

set_option maxHeartbeats 2000000 in
/-- The updated weight the kernel's program ends with is the reference's chain of operations applied to the launched
    weight, keys and values. The contents at the grid's exit enter only through the three arrays above, so they are
    replaced by a variable before the chain is read off operation by operation. -/
theorem tail_eq (c : Dev nD) :
    Pipeline.afterTail₀ cfgs (dats m) 0 (V0 m) [hostOps1] c main_v24
      = Cert.ReferenceIdeal.Read.val_main_v25 (F := Ideal) (m ((c : Thread nD τ).loc main_arg1))
          (m ((c : Thread nD τ).loc main_arg2)) (m ((c : Thread nD τ).loc main_arg3)) := by
  unfold Pipeline.afterTail₀
  show StableHlo.after hostOps1 (Pipeline.withArrays spec0 c (V0 m c) (fun w => (dats m 0 c).arrAt w cfg0.N))
    (Proc.devRef .tc main_v24) = _
  have h1 := exit_weight m c
  have h2 := exit_keys m c
  have h3 := exit_values m c
  generalize Pipeline.withArrays spec0 c (V0 m c) (fun w => (dats m 0 c).arrAt w cfg0.N) = W at h1 h2 h3 ⊢
  after_results_simp
  rw [h1, h2, h3, ← Cert.ReferenceIdeal.Read.val_main_v25_eq]
  rfl

end Cert.Bridge

end
-- ==== Proof.lean ====
/-
  The kernel against its reference, on the extended reals.

  Two results are compared. The first is `out[b, f, n] = Σ_k w[k, f] · x[b, n, k]`: the kernel computes it block by
  block on an 8 × 4 grid (one batch and 8192 positions per point, the whole weight at every point, each point one
  matrix product into a zero accumulator; the roundings of the operands to a shorter format are the identity here),
  the reference as one contraction followed by a transposition of the first two axes. Both are the same finite sum of
  the same products in the same order of factors, so they agree on all extended reals, infinite entries included; the
  precondition is never opened (`Proof/Contract.lean` the function, `Proof/RefRead.lean` the reference,
  `Proof/KernelBlock.lean` one block, `Proof/KernelOut.lean` the blocks assembled). The second result, the weight with
  its keyed rows overwritten by the norm of the averaged rows, is computed by both programs by one and the same chain
  of host operations on arrays that the grid leaves as launched (`Proof/KernelTail.lean`).

  The three frames: the two kernel programs run, terminate and keep their arguments by their generated frame proofs;
  the reference by its run with the results dropped. The idealization rewrote no operation, so `preserves` asks nothing.
-/
import proofs.«124176_j23416161698500_2_alg».proof.Defs
import proofs.«124176_j23416161698500_2_alg».proof.Proof.Gen.Kernel
import proofs.«124176_j23416161698500_2_alg».proof.Proof.Gen.Kernel.Frame
import proofs.«124176_j23416161698500_2_alg».proof.Proof.Gen.KernelIdeal
import proofs.«124176_j23416161698500_2_alg».proof.Proof.Gen.KernelIdeal.Frame
import proofs.«124176_j23416161698500_2_alg».proof.Proof.Gen.ReferenceIdeal
import proofs.«124176_j23416161698500_2_alg».proof.Proof.Gen.ReferenceIdeal.Run
import proofs.«124176_j23416161698500_2_alg».proof.Proof.Gen.ReferenceIdeal.Read
import proofs.«124176_j23416161698500_2_alg».proof.Proof.Gen.Pre_finite_inputs
import proofs.«124176_j23416161698500_2_alg».proof.Proof.RefRead
import proofs.«124176_j23416161698500_2_alg».proof.Proof.KernelOut
import proofs.«124176_j23416161698500_2_alg».proof.Proof.KernelTail
import Idealize.ShloMosaic.Adequacy
import Idealize.ShloMosaic.Init

noncomputable section

namespace Cert.Bridge

open Cert.KernelIdeal Cert.KernelIdeal.Gen Idealize.ShloMosaic Idealize.ShloMosaic.TcCoe Idealize.SL.Sem

/-- The idealized kernel's program runs, and ends with the first result at `contract` of the launched input and
    weight, the second at the shared chain of the launched weight, keys and values, and its four arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
        = contract (m ((c : Thread nD τ).loc main_arg0)) (m ((c : Thread nD τ).loc main_arg1))
      ∧ r.2.mem ((c : Thread nD τ).loc main_v24)
        = Cert.ReferenceIdeal.Read.val_main_v25 (F := Ideal) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).1 2).trans (out_final m c),
      ((h c).2 main_v24 (Pipeline.mem_restRefs_of main_v24 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Bridge

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories agreeing on the four arguments both programs end with the first result at `contract` of the input
    and the weight and the second at the shared chain of the weight, the keys and the values. -/
theorem algebraic : Cert.algebraic_KernelIdeal_ReferenceIdeal := by
  intro m ρ m' ρ' _ hagree
  refine ⟨_, _, Cert.Bridge.kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v1_eq, Cert.Bridge.ref_out, (hagree c).1, (hagree c).2.1]
  · refine ((h c).2.1).trans ?_
    rw [(hagree c).2.1, (hagree c).2.2.1, (hagree c).2.2.2]
    exact Cert.ReferenceIdeal.Read.val_main_v25_eq (F := Ideal) _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
